-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x256 : Shape := ⟨3, ![256, 512, 256]⟩
abbrev S256x256 : Shape := ⟨2, ![256, 256]⟩
abbrev S256 : Shape := ⟨1, ![256]⟩
abbrev S512x32 : Shape := ⟨2, ![512, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S256x512x256 : S_.BroadcastsInDim S256x512x256 (![] : Fin 0 → Fin S256x512x256.rank)
  reducesTo_S256x512x256_S_d0_1_2 : S256x512x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32x1 .f32) (main_arg6 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg5
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S256x512x256 .f32) (main_arg1 : FVec F S256x256 .f32) (main_arg2 : IVec S256 32) (main_arg3 : FVec F S512x32 .f32) (main_arg4 : FVec F S32 .f32) (main_arg5 : FVec F S32x1 .f32) (main_arg6 : FVec F S1 .f32) : IVec S_ 1 :=
  let main_v0 : FVec F S256x512x256 .f32 := Host.absf main_arg0
  let main_cst : FVec F S_ .f32 := constant S_ .f32 0x7F800000#32
  let main_v1 : FVec F S256x512x256 .f32 := broadcastInDim S256x512x256 ![] bcast_S_S256x512x256 main_cst
  let main_v2 : IVec S256x512x256 1 := cmpf .olt main_v0 main_v1
  let main_c : IVec S_ 1 := constantI S_ 1 1#1
  let main_v3 : IVec S_ 1 := (fun x v => Host.reduce IntOp.andi x v reducesTo_S256x512x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S512x32 .f32 := Host.absf main_arg3
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S256x512x256 : Shape := ⟨3, ![256, 512, 256]⟩
abbrev S256x256 : Shape := ⟨2, ![256, 256]⟩
abbrev S256 : Shape := ⟨1, ![256]⟩
abbrev S512x32 : Shape := ⟨2, ![512, 32]⟩
abbrev S32 : Shape := ⟨1, ![32]⟩
abbrev S32x1 : Shape := ⟨2, ![32, 1]⟩
abbrev S1 : Shape := ⟨1, ![1]⟩
abbrev S256x32 : Shape := ⟨2, ![256, 32]⟩
abbrev S256x512 : Shape := ⟨2, ![256, 512]⟩
abbrev S16x512x256 : Shape := ⟨3, ![16, 512, 256]⟩
abbrev S16x32 : Shape := ⟨2, ![16, 32]⟩
abbrev S16x512 : Shape := ⟨2, ![16, 512]⟩
abbrev S8192x256 : Shape := ⟨2, ![8192, 256]⟩
abbrev S8192x32 : Shape := ⟨2, ![8192, 32]⟩
abbrev S16x512x32 : Shape := ⟨3, ![16, 512, 32]⟩
abbrev S16x1x32 : Shape := ⟨3, ![16, 1, 32]⟩
abbrev S1x1x32 : Shape := ⟨3, ![1, 1, 32]⟩
abbrev S1x1 : Shape := ⟨2, ![1, 1]⟩
abbrev S16 : Shape := ⟨1, ![16]⟩
abbrev S16x1 : Shape := ⟨2, ![16, 1]⟩
abbrev S256x512x1 : Shape := ⟨3, ![256, 512, 1]⟩

abbrev nBuf : Space → Nat
  | .hbm => 13
  | .vmem => 10
  | .smem => 0
  | _ => 0

abbrev bufTy : (tb : Table) → Fin (tcTables nBuf tb) → BufTy
  | .hbm, ⟨0, _⟩ => ⟨S256x512x256, .f32⟩
  | .hbm, ⟨1, _⟩ => ⟨S256x256, .f32⟩
  | .hbm, ⟨2, _⟩ => ⟨S256, .i32⟩
  | .hbm, ⟨3, _⟩ => ⟨S512x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S256x32, .f32⟩
  | .hbm, ⟨8, _⟩ => ⟨S256x32, .f32⟩
  | .hbm, ⟨9, _⟩ => ⟨S256x32, .f32⟩
  | .hbm, ⟨10, _⟩ => ⟨S32, .f32⟩
  | .hbm, ⟨11, _⟩ => ⟨S256x512, .f32⟩
  | .hbm, ⟨12, _⟩ => ⟨S256x512x1, .f32⟩
  | .local _ .vmem, ⟨0, _⟩ => ⟨S16x512x256, .f32⟩
  | .local _ .vmem, ⟨1, _⟩ => ⟨S16x512x256, .f32⟩
  | .local _ .vmem, ⟨2, _⟩ => ⟨S16x32, .f32⟩
  | .local _ .vmem, ⟨3, _⟩ => ⟨S16x32, .f32⟩
  | .local _ .vmem, ⟨4, _⟩ => ⟨S256x32, .f32⟩
  | .local _ .vmem, ⟨5, _⟩ => ⟨S32, .f32⟩
  | .local _ .vmem, ⟨6, _⟩ => ⟨S32, .f32⟩
  | .local _ .vmem, ⟨7, _⟩ => ⟨S1, .f32⟩
  | .local _ .vmem, ⟨8, _⟩ => ⟨S16x512, .f32⟩
  | .local _ .vmem, ⟨9, _⟩ => ⟨S16x512, .f32⟩
  | _, _ => ⟨S256x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S512x32_S256x32_0_0 : S512x32.Slices ![0, 0] S256x32
  slices_S512x32_S256x32_256_0 : S512x32.Slices ![256, 0] S256x32
  shapeCasts_S32x1_S32 : S32x1.ShapeCasts S32
  inb_S16x512x256_S16x512x256_0_0_0 : ∀ a, (![0, 0, 0] : Fin 3 → Nat) a + S16x512x256.size a ≤ S16x512x256.size a
  h_S16x512x256 : 0 < S16x512x256.numel
  bitsLt_bf16_f32 : FTy.bits .bf16 < FTy.bits .f32
  shapeCasts_S16x512x256_S8192x256 : S16x512x256.ShapeCasts S8192x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S8192x32_S16x512x32 : S8192x32.ShapeCasts S16x512x32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S32_S32_0 : ∀ a, (![0] : Fin 1 → Nat) a + S32.size a ≤ S32.size a
  h_S32 : 0 < S32.numel
  shapeCasts_S16x32_S16x1x32 : S16x32.ShapeCasts S16x1x32
  broadcasts_S16x1x32_S16x512x32 : S16x1x32.Broadcasts S16x512x32
  shapeCasts_S32_S1x1x32 : S32.ShapeCasts S1x1x32
  broadcasts_S1x1x32_S16x512x32 : S1x1x32.Broadcasts S16x512x32
  shapeCasts_S32_S32 : S32.ShapeCasts S32
  reduces_S16x512x32_S16x512 : S16x512x32.Reduces [2] S16x512
  inb_S1_S1_0 : ∀ a, (![0] : Fin 1 → Nat) a + S1.size a ≤ S1.size a
  h_S1 : 0 < S1.numel
  shapeCasts_S1_S1x1 : S1.ShapeCasts S1x1
  broadcasts_S1x1_S16x512 : S1x1.Broadcasts S16x512
  reduces_S16x512_S16 : S16x512.Reduces [1] S16
  shapeCasts_S16_S16x1 : S16.ShapeCasts S16x1
  broadcasts_S16x1_S16x512 : S16x1.Broadcasts S16x512
  inb_S16x512_S16x512_0_0 : ∀ a, (![0, 0] : Fin 2 → Nat) a + S16x512.size a ≤ S16x512.size a
  h_S16x512 : 0 < S16x512.numel
  bcast_S256x512_S256x512x1_0_1 : S256x512.BroadcastsInDim S256x512x1 (![0, 1] : Fin 2 → Fin S256x512x1.rank)
  dot_S256x256_S256x32_S256x32_1_0_0_1_n_n_wf : DotDims.WF S256x256 S256x32 S256x32 [1] [0] [0] [1] [] []
  dot_S8192x256_S256x32_S8192x32_1_0_0_1_n_n_wf : DotDims.WF S8192x256 S256x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S256x512x256.size a
  hwx0_0 : ∀ i : grid0.Coords, EltTy.bits .f32 = 32 ∨ (Rect.block (s := S256x512x256) S16x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S256x32.size a
  hwx0_1 : ∀ i : grid0.Coords, EltTy.bits .f32 = 32 ∨ (Rect.block (s := S256x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x512.size a ≤ S256x512.size a
  hwx0_6 : ∀ i : grid0.Coords, EltTy.bits .f32 = 32 ∨ (Rect.block (s := S256x512) S16x512.size (cc0_transform_6 i) (hinb0_6 i)).WholeWords (EltTy.packing .f32)

variable [Facts₀]

def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S8192x256_S256x32_S8192x32_1_0_0_1_n_n : DotDims S8192x256 S256x32 S8192x32 where
  lhsContracting := [1]
  rhsContracting := [0]
  lhsNonContracting := [0]
  rhsNonContracting := [1]
  lhsBatch := []
  rhsBatch := []
  wf := dot_S8192x256_S256x32_S8192x32_1_0_0_1_n_n_wf

abbrev win0_0 : Pipeline.Window sig grid0 :=
  Pipeline.Window.ofSpec (Memref.whole main_arg0) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S16x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x512x256 : Shape := ⟨3, ![256, 512, 256]⟩
abbrev S256x256 : Shape := ⟨2, ![256, 256]⟩
abbrev S256 : Shape := ⟨1, ![256]⟩
abbrev S512x32 : Shape := ⟨2, ![512, 32]⟩
abbrev S32 : Shape := ⟨1, ![32]⟩
abbrev S32x1 : Shape := ⟨2, ![32, 1]⟩
abbrev S1 : Shape := ⟨1, ![1]⟩
abbrev S256x32 : Shape := ⟨2, ![256, 32]⟩
abbrev S256x512x32 : Shape := ⟨3, ![256, 512, 32]⟩
abbrev S256x1x32 : Shape := ⟨3, ![256, 1, 32]⟩
abbrev S1x1x32 : Shape := ⟨3, ![1, 1, 32]⟩
abbrev S256x512x1 : Shape := ⟨3, ![256, 512, 1]⟩
abbrev S1x1x1 : Shape := ⟨3, ![1, 1, 1]⟩
abbrev S_ : Shape := ⟨0, ![]⟩
abbrev S256x1 : Shape := ⟨2, ![256, 1]⟩
abbrev S256x1x1 : Shape := ⟨3, ![256, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S256x512x256, .f32⟩
  | .hbm, ⟨1, _⟩ => ⟨S256x256, .f32⟩
  | .hbm, ⟨2, _⟩ => ⟨S256, .i32⟩
  | .hbm, ⟨3, _⟩ => ⟨S512x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S256x32, .f32⟩
  | .hbm, ⟨8, _⟩ => ⟨S256x32, .f32⟩
  | .hbm, ⟨9, _⟩ => ⟨S256x512x32, .f32⟩
  | .hbm, ⟨10, _⟩ => ⟨S256x32, .f32⟩
  | .hbm, ⟨11, _⟩ => ⟨S256x1x32, .f32⟩
  | .hbm, ⟨12, _⟩ => ⟨S256x512x32, .f32⟩
  | .hbm, ⟨13, _⟩ => ⟨S256x512x32, .f32⟩
  | .hbm, ⟨14, _⟩ => ⟨S1x1x32, .f32⟩
  | .hbm, ⟨15, _⟩ => ⟨S256x512x32, .f32⟩
  | .hbm, ⟨16, _⟩ => ⟨S256x512x32, .f32⟩
  | .hbm, ⟨17, _⟩ => ⟨S256x512x32, .f32⟩
  | .hbm, ⟨18, _⟩ => ⟨S256x512x1, .f32⟩
  | .hbm, ⟨19, _⟩ => ⟨S1x1x1, .f32⟩
  | .hbm, ⟨20, _⟩ => ⟨S256x512x1, .f32⟩
  | .hbm, ⟨21, _⟩ => ⟨S256x512x1, .f32⟩
  | .hbm, ⟨22, _⟩ => ⟨S_, .f32⟩
  | .hbm, ⟨23, _⟩ => ⟨S256x512x1, .f32⟩
  | .hbm, ⟨24, _⟩ => ⟨S256x512x1, .f32⟩
  | .hbm, ⟨25, _⟩ => ⟨S256x512x1, .f32⟩
  | .hbm, ⟨26, _⟩ => ⟨S_, .f32⟩
  | .hbm, ⟨27, _⟩ => ⟨S256x1, .f32⟩
  | .hbm, ⟨28, _⟩ => ⟨S256x1x1, .f32⟩
  | .hbm, ⟨29, _⟩ => ⟨S_, .f32⟩
  | .hbm, ⟨30, _⟩ => ⟨S256x1x1, .f32⟩
  | .hbm, ⟨31, _⟩ => ⟨S256x1x1, .f32⟩
  | .hbm, ⟨32, _⟩ => ⟨S256x512x1, .f32⟩
  | .hbm, ⟨33, _⟩ => ⟨S256x512x1, .f32⟩
  | _, _ => ⟨S256x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  slices_S512x32_S256x32_0_0 : S512x32.Slices ![0, 0] S256x32
  slices_S512x32_S256x32_256_0 : S512x32.Slices ![256, 0] S256x32
  bcast_S256x32_S256x1x32_0_2 : S256x32.BroadcastsInDim S256x1x32 (![0, 2] : Fin 2 → Fin S256x1x32.rank)
  bcast_S256x1x32_S256x512x32_0_1_2 : S256x1x32.BroadcastsInDim S256x512x32 (![0, 1, 2] : Fin 3 → Fin S256x512x32.rank)
  bcast_S32_S1x1x32_2 : S32.BroadcastsInDim S1x1x32 (![2] : Fin 1 → Fin S1x1x32.rank)
  bcast_S1x1x32_S256x512x32_0_1_2 : S1x1x32.BroadcastsInDim S256x512x32 (![0, 1, 2] : Fin 3 → Fin S256x512x32.rank)
  bcast_S1_S1x1x1_2 : S1.BroadcastsInDim S1x1x1 (![2] : Fin 1 → Fin S1x1x1.rank)
  bcast_S1x1x1_S256x512x1_0_1_2 : S1x1x1.BroadcastsInDim S256x512x1 (![0, 1, 2] : Fin 3 → Fin S256x512x1.rank)
  bcast_S_S256x512x1 : S_.BroadcastsInDim S256x512x1 (![] : Fin 0 → Fin S256x512x1.rank)
  reducesTo_S256x512x1_S256x1_d1 : S256x512x1.ReducesTo [1] S256x1
  h_S_ : 0 < S_.numel
  bcast_S256x1_S256x1x1_0_2 : S256x1.BroadcastsInDim S256x1x1 (![0, 2] : Fin 2 → Fin S256x1x1.rank)
  bcast_S_S256x1x1 : S_.BroadcastsInDim S256x1x1 (![] : Fin 0 → Fin S256x1x1.rank)
  bcast_S256x1x1_S256x512x1_0_1_2 : S256x1x1.BroadcastsInDim S256x512x1 (![0, 1, 2] : Fin 3 → Fin S256x512x1.rank)
  dot_S256x512x256_S256x32_S256x512x32_2_0_01_1_n_n_wf : DotDims.WF S256x512x256 S256x32 S256x512x32 [2] [0] [0, 1] [1] [] []
  dot_S256x256_S256x32_S256x32_1_0_0_1_n_n_wf : DotDims.WF S256x256 S256x32 S256x32 [1] [0] [0] [1] [] []
  dot_S256x512x32_S32x1_S256x512x1_2_0_01_1_n_n_wf : DotDims.WF S256x512x32 S32x1 S256x512x1 [2] [0] [0, 1] [1] [] []

variable [Facts₀]

def dot_S256x512x256_S256x32_S256x512x32_2_0_01_1_n_n : DotDims S256x512x256 S256x32 S256x512x32 where
  lhsContracting := [2]
  rhsContracting := [0]
  lhsNonContracting := [0, 1]
  rhsNonContracting := [1]
  lhsBatch := []
  rhsBatch := []
  wf := dot_S256x512x256_S256x32_S256x512x32_2_0_01_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S256x512x32_S32x1_S256x512x1_2_0_01_1_n_n : DotDims S256x512x32 S32x1 S256x512x1 where
  lhsContracting := [2]
  rhsContracting := [0]
  lhsNonContracting := [0, 1]
  rhsNonContracting := [1]
  lhsBatch := []
  rhsBatch := []
  wf := dot_S256x512x32_S32x1_S256x512x1_2_0_01_1_n_n_wf

class Facts : Prop extends Facts₀ where

variable [Facts]
-- ==== Proof.Spec.lean ====
/-
  The mathematics both programs compute, stated once, for ONE batch row.

  A batch row of the input is a matrix `X t d` (512 positions, 256 features).  With the first weight block
  `w d h` (256 x 32), the row's projected query term `u h`, the bias `b h`, the second weight vector `v h`
  and the scalar bias `β`, the row's score at position `t` is

      score t = exp (max (∑ h, tanh ((∑ d, X t d * w d h) + u h + b h) * v h + β) 0)

  and the row's attention weight at `t` is `score t / ((∑ t', score t') + ε)`, with `ε` the binary32 value
  nearest to 1e-7 (both programs carry the same word for it, so it is never evaluated).  Everything is an
  extended real: sums, products, `max`, and the exact `tanh`, `exp` and quotient of the ideal instance.

  The whole result then takes row `n` of `x`, the upper half of `W1` as `w`, the product of row `n` of `y`
  with the lower half of `W1` as `u`, and `W2`'s single column as `v`.
-/
import Idealize.ShloMosaic.PureOps.Ideal
import Idealize.ShloMosaic.Lib.ValueIdx

noncomputable section

namespace Cert.Spec

open Idealize.ShloMosaic Idealize.ShloMosaic.ValueIdx
open scoped BigOperators

/-- The hidden unit `h` at position `t`: `tanh` of the projected features plus the row term plus the bias,
    grouped as both programs group it. -/
def hid (X : Fin 512 → Fin 256 → EReal) (w : Fin 256 → Fin 32 → EReal) (u b : Fin 32 → EReal)
    (t : Fin 512) (h : Fin 32) : EReal :=
  Ideal.tanh (((∑ d : Fin 256, X t d * w d h) + u h) + b h)

/-- The unnormalised weight of position `t`: the exponential of the rectified second-layer output. -/
def score (X : Fin 512 → Fin 256 → EReal) (w : Fin 256 → Fin 32 → EReal) (u b v : Fin 32 → EReal) (β : EReal)
    (t : Fin 512) : EReal :=
  Ideal.exp (max ((∑ h : Fin 32, hid X w u b t h * v h) + β) (Ideal.ofBits .f32 0x00000000#32))

/-- The attention weight of position `t` within its row: its score over the row's total plus `ε`. -/
def attnRow (X : Fin 512 → Fin 256 → EReal) (w : Fin 256 → Fin 32 → EReal) (u b v : Fin 32 → EReal) (β : EReal)
    (t : Fin 512) : EReal :=
  Ideal.div (score X w u b v β t) ((∑ t' : Fin 512, score X w u b v β t') + Ideal.ofBits .f32 0x33D6BF95#32)

/-- Row `d` of the upper half of the first weight matrix. -/
def upper (W1 : (⟨2, ![512, 32]⟩ : Shape).Idx → EReal) (d : Fin 256) (h : Fin 32) : EReal :=
  W1 (ix2 (⟨d.val, by have := d.isLt; omega⟩ : Fin 512) h)

/-- Row `d` of its lower half. -/
def lower (W1 : (⟨2, ![512, 32]⟩ : Shape).Idx → EReal) (d : Fin 256) (h : Fin 32) : EReal :=
  W1 (ix2 (⟨256 + d.val, by have := d.isLt; omega⟩ : Fin 512) h)

/-- The row term: row `n` of `y` times the lower half of the first weight matrix. -/
def rowTerm (y : (⟨2, ![256, 256]⟩ : Shape).Idx → EReal) (W1 : (⟨2, ![512, 32]⟩ : Shape).Idx → EReal)
    (n : Fin 256) (h : Fin 32) : EReal :=
  ∑ d : Fin 256, y (ix2 n d) * lower W1 d h

/-- The attention weights as a 256 x 512 matrix of the six float arguments. -/
def out2 (x : (⟨3, ![256, 512, 256]⟩ : Shape).Idx → EReal) (y : (⟨2, ![256, 256]⟩ : Shape).Idx → EReal)
    (W1 : (⟨2, ![512, 32]⟩ : Shape).Idx → EReal) (b1 : (⟨1, ![32]⟩ : Shape).Idx → EReal)
    (W2 : (⟨2, ![32, 1]⟩ : Shape).Idx → EReal) (b2 : (⟨1, ![1]⟩ : Shape).Idx → EReal)
    (n : Fin 256) (t : Fin 512) : EReal :=
  attnRow (fun t d => x (ix3 n t d)) (upper W1) (rowTerm y W1 n) (fun h => b1 (ix1 h))
    (fun h => W2 (ix2 h (0 : Fin 1))) (b2 (ix1 (0 : Fin 1))) t

/-- The same with the trailing unit axis both programs return. -/
def out3 (x : (⟨3, ![256, 512, 256]⟩ : Shape).Idx → EReal) (y : (⟨2, ![256, 256]⟩ : Shape).Idx → EReal)
    (W1 : (⟨2, ![512, 32]⟩ : Shape).Idx → EReal) (b1 : (⟨1, ![32]⟩ : Shape).Idx → EReal)
    (W2 : (⟨2, ![32, 1]⟩ : Shape).Idx → EReal) (b2 : (⟨1, ![1]⟩ : Shape).Idx → EReal) :
    (⟨3, ![256, 512, 1]⟩ : Shape).Idx → EReal :=
  fun i => out2 x y W1 b1 W2 b2 ⟨(i 0).val, (i 0).isLt⟩ ⟨(i 1).val, (i 1).isLt⟩

end Cert.Spec

end
-- ==== Proof.Payload.lean ====
/-
  The arithmetic of one grid step, read at one element.

  A grid step holds 16 batch rows. It stores a 16 x 512 block: the attention weights of those rows over their 512
  positions. The block is one term over the six values the step reads: the rows' inputs `x` (16 x 512 x 256), the first
  weight block `w` (256 x 32), the rows' projected query terms `u` (16 x 32), the bias `b` (32), the second weight
  vector `v` (32) and the scalar bias `β` (1). It flattens the 16 x 512 positions into 8192 rows, multiplies by `w`,
  restores the three axes, adds `u` along the positions and `b` along rows and positions, takes `tanh`, multiplies by
  `v` and sums over the 32 hidden units, adds `β`, rectifies, exponentiates, and divides each row by its total plus ε.

  This module proves that the term at row `p` and position `q` is `Cert.Spec.attnRow` of row `p`'s data at `q`
  (`pay_apply`). The road: each layout step (a flattening, a restored axis, a broadcast) read at an index is its operand
  at one index, found from the row-major position; the matrix product at an index is a sum over the 256 features; each
  of the two reductions at an index is a sum over the coordinate of the reduced axis. The term is cut into two named
  stages, the hidden pre-activations (`preact`) and the unnormalised weights (`scores`), each read at an index by those
  facts. Every value is an extended real, where rounding to the narrow format before the product is the identity.
-/
import proofs.«100652_j57346403336437_2_alg».proof.Proof.Gen.KernelIdeal.Skeleton
import proofs.«100652_j57346403336437_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

variable {α : Type}

/-! ## The flattening of rows and positions -/

/-- Position `q` of row `p` is row `512 p + q` of the flattened 8192-row matrix. -/
def row (p : Fin 16) (q : Fin 512) : Fin 8192 := ⟨512 * p.val + q.val, by omega⟩

/-- An 8192 x 32 matrix viewed as 16 x 512 x 32 reads, at `(p, q, c)`, the matrix at `(512 p + q, c)`: both have
    row-major position `(512 p + q) · 32 + c`. -/
theorem cast_8192x32_apply (x : S8192x32.Idx → α) (h : S8192x32.ShapeCasts S16x512x32)
    (p : Fin 16) (q : Fin 512) (c : Fin 32) :
    shapeCast S16x512x32 x h (ix3 p q c) = x (ix2 (row p q) c) :=
  shapeCast_apply x h _ _ (by
    rw [Shape.rowMajor_val_two, Shape.rowMajor_val_three]
    show (512 * p.val + q.val) * 32 + c.val = (p.val * 512 + q.val) * 32 + c.val
    omega)

/-- A 16 x 512 x 256 array viewed as 8192 x 256 reads, at `(512 p + q, d)`, the array at `(p, q, d)`: both have
    row-major position `(512 p + q) · 256 + d`. -/
theorem cast_16x512x256_apply (x : S16x512x256.Idx → α) (h : S16x512x256.ShapeCasts S8192x256)
    (p : Fin 16) (q : Fin 512) (d : Fin 256) :
    shapeCast S8192x256 x h (ix2 (row p q) d) = x (ix3 p q d) :=
  shapeCast_apply x h _ _ (by
    rw [Shape.rowMajor_val_two, Shape.rowMajor_val_three]
    show (p.val * 512 + q.val) * 256 + d.val = (512 * p.val + q.val) * 256 + d.val
    omega)

/-! ## The matrix product at an index -/

/-- Of the product's left operand, the row is the output's row … -/
theorem lhs_row (i : S8192x32.Idx) (k : dot_S8192x256_S256x32_S8192x32_1_0_0_1_n_n.contr.Idx) :
    (dot_S8192x256_S256x32_S8192x32_1_0_0_1_n_n.lhsIdx i k 0).val = (i 0).val := by
  unfold DotDims.lhsIdx
  rw [dif_neg (show ¬(0 : Fin S8192x256.rank) ∈ dot_S8192x256_S256x32_S8192x32_1_0_0_1_n_n.lhsBatch by decide),
    dif_pos (show (0 : Fin S8192x256.rank) ∈ dot_S8192x256_S256x32_S8192x32_1_0_0_1_n_n.lhsNonContracting by decide)]
  rfl
/-- … and the column is the contracted coordinate. -/
theorem lhs_col (i : S8192x32.Idx) (k : dot_S8192x256_S256x32_S8192x32_1_0_0_1_n_n.contr.Idx) :
    (dot_S8192x256_S256x32_S8192x32_1_0_0_1_n_n.lhsIdx i k 1).val = (k ⟨0, by decide⟩).val :=
  dot_S8192x256_S256x32_S8192x32_1_0_0_1_n_n.lhsIdx_val_of_single rfl i k
/-- Of its right operand, the row is the contracted coordinate … -/
theorem rhs_row (i : S8192x32.Idx) (k : dot_S8192x256_S256x32_S8192x32_1_0_0_1_n_n.contr.Idx) :
    (dot_S8192x256_S256x32_S8192x32_1_0_0_1_n_n.rhsIdx i k 0).val = (k ⟨0, by decide⟩).val :=
  dot_S8192x256_S256x32_S8192x32_1_0_0_1_n_n.rhsIdx_val_of_single rfl i k
/-- … and the column is the output's column. -/
theorem rhs_col (i : S8192x32.Idx) (k : dot_S8192x256_S256x32_S8192x32_1_0_0_1_n_n.contr.Idx) :
    (dot_S8192x256_S256x32_S8192x32_1_0_0_1_n_n.rhsIdx i k 1).val = (i 1).val := by
  unfold DotDims.rhsIdx
  rw [dif_neg (show ¬(1 : Fin S256x32.rank) ∈ dot_S8192x256_S256x32_S8192x32_1_0_0_1_n_n.rhsBatch by decide),
    dif_pos (show (1 : Fin S256x32.rank) ∈ dot_S8192x256_S256x32_S8192x32_1_0_0_1_n_n.rhsNonContracting by decide)]
  rfl

/-- The product of an 8192 x 256 matrix with a 256 x 32 one, added to zero, at row `r` and column `c`: the sum over
    the 256 features `d` of left `(r, d)` times right `(d, c)`. The contraction has one axis, so its index set is
    `Fin 256` and the sum is carried along that bijection. -/
theorem dot_apply (lhs : FVec Ideal S8192x256 .bf16) (rhs : FVec Ideal S256x32 .bf16) (r : Fin 8192) (c : Fin 32) :
    matmul dot_S8192x256_S256x32_S8192x32_1_0_0_1_n_n none lhs rhs (constant S8192x32 .f32 0x00000000#32) (ix2 r c)
      = ∑ d : Fin 256, lhs (ix2 r d) * rhs (ix2 d c) := by
  refine (Ideal.matmul_constant_zero_apply dot_S8192x256_S256x32_S8192x32_1_0_0_1_n_n none lhs rhs (ix2 r c)).trans ?_
  rw [← Equiv.sum_comp (contrEquiv1 dot_S8192x256_S256x32_S8192x32_1_0_0_1_n_n 256 rfl rfl).symm]
  refine Finset.sum_congr rfl fun d _ => ?_
  have hd := contrEquiv1_symm_val dot_S8192x256_S256x32_S8192x32_1_0_0_1_n_n 256 rfl rfl d
  have el : dot_S8192x256_S256x32_S8192x32_1_0_0_1_n_n.lhsIdx (ix2 r c)
      ((contrEquiv1 dot_S8192x256_S256x32_S8192x32_1_0_0_1_n_n 256 rfl rfl).symm d) = ix2 r d :=
    funext fun a => Fin.ext (by
      match a with
      | ⟨0, _⟩ => exact lhs_row _ _
      | ⟨1, _⟩ => exact (lhs_col _ _).trans hd)
  have er : dot_S8192x256_S256x32_S8192x32_1_0_0_1_n_n.rhsIdx (ix2 r c)
      ((contrEquiv1 dot_S8192x256_S256x32_S8192x32_1_0_0_1_n_n 256 rfl rfl).symm d) = ix2 d c :=
    funext fun a => Fin.ext (by
      match a with
      | ⟨0, _⟩ => exact (rhs_row _ _).trans hd
      | ⟨1, _⟩ => exact rhs_col _ _)
  rw [el, er]

/-! ## The broadcasts at an index -/

/-- A 16 x 32 matrix given a unit middle axis and repeated along it reads, at `(p, q, c)`, the matrix at `(p, c)`:
    the same for every position `q`. -/
theorem bcast_rows_apply (x : S16x32.Idx → α) (hc : S16x32.ShapeCasts S16x1x32) (hb : S16x1x32.Broadcasts S16x512x32)
    (p : Fin 16) (q : Fin 512) (c : Fin 32) :
    broadcastTo S16x512x32 (shapeCast S16x1x32 x hc) hb (ix3 p q c) = x (ix2 p c) := by
  refine (broadcastTo_apply _ hb (ix3 p q c) (ix3 p (0 : Fin 1) c) fun a => ?_).trans ?_
  · match a with
    | ⟨0, _⟩ => rfl
    | ⟨1, _⟩ => rfl
    | ⟨2, _⟩ => rfl
  · exact shapeCast_apply x hc _ _ (by
      rw [Shape.rowMajor_val_two, Shape.rowMajor_val_three]
      show p.val * 32 + c.val = (p.val * 1 + 0) * 32 + c.val
      omega)

/-- A vector of 32 given two leading unit axes and repeated along both reads, at `(p, q, c)`, the vector at `c`. -/
theorem bcast_vec_apply (x : S32.Idx → α) (hc : S32.ShapeCasts S1x1x32) (hb : S1x1x32.Broadcasts S16x512x32)
    (p : Fin 16) (q : Fin 512) (c : Fin 32) :
    broadcastTo S16x512x32 (shapeCast S1x1x32 x hc) hb (ix3 p q c) = x (ix1 c) := by
  refine (broadcastTo_apply _ hb (ix3 p q c) (ix3 (0 : Fin 1) (0 : Fin 1) c) fun a => ?_).trans ?_
  · match a with
    | ⟨0, _⟩ => rfl
    | ⟨1, _⟩ => rfl
    | ⟨2, _⟩ => rfl
  · exact shapeCast_apply x hc _ _ (by
      rw [Shape.rowMajor_val_one, Shape.rowMajor_val_three]
      show c.val = (0 * 1 + 0) * 32 + c.val
      omega)

/-- A one-element vector viewed as 1 x 1 and repeated over 16 x 512 reads its one element everywhere. -/
theorem bcast_one_apply (x : S1.Idx → α) (hc : S1.ShapeCasts S1x1) (hb : S1x1.Broadcasts S16x512)
    (p : Fin 16) (q : Fin 512) :
    broadcastTo S16x512 (shapeCast S1x1 x hc) hb (ix2 p q) = x (ix1 (0 : Fin 1)) := by
  refine (broadcastTo_apply _ hb (ix2 p q) (ix2 (0 : Fin 1) (0 : Fin 1)) fun a => ?_).trans ?_
  · match a with
    | ⟨0, _⟩ => rfl
    | ⟨1, _⟩ => rfl
  · exact shapeCast_apply x hc _ _ (by
      rw [Shape.rowMajor_val_one, Shape.rowMajor_val_two]
      rfl)

/-- A 16 x 1 column repeated along the 512 positions reads, at `(p, q)`, the column at `p`. -/
theorem bcast_col_apply (x : S16x1.Idx → α) (hb : S16x1.Broadcasts S16x512) (p : Fin 16) (q : Fin 512) :
    broadcastTo S16x512 x hb (ix2 p q) = x (ix2 p (0 : Fin 1)) := by
  refine broadcastTo_apply _ hb (ix2 p q) (ix2 p (0 : Fin 1)) fun a => ?_
  match a with
  | ⟨0, _⟩ => rfl
  | ⟨1, _⟩ => rfl

/-- A vector of 16 viewed as a 16 x 1 column reads, at `(p, 0)`, the vector at `p`. -/
theorem cast_col_apply (x : S16.Idx → α) (hc : S16.ShapeCasts S16x1) (p : Fin 16) :
    shapeCast S16x1 x hc (ix2 p (0 : Fin 1)) = x (ix1 p) :=
  shapeCast_apply x hc _ _ (by
    rw [Shape.rowMajor_val_one, Shape.rowMajor_val_two]
    show p.val = p.val * 1 + 0
    omega)

/-! ## The two sums at an index -/

/-- The sum along the last axis of a 16 x 512 x 32 array, at `(p, q)`: the sum over the 32 hidden units `c` of the
    array at `(p, q, c)`. -/
theorem sum_hidden_apply (src : FVec Ideal S16x512x32 .f32) (h : S16x512x32.Reduces [2] S16x512)
    (hφ : FKind.Formats .f32) (hacc : (0x00000000#32 : BitVec 32) = FKind.add.neutral .f32 hφ) (p : Fin 16) (q : Fin 512) :
    multiReduction .add [2] S16x512 src 0x00000000#32 h hφ hacc (ix2 p q) = ∑ c : Fin 32, src (ix3 p q c) := by
  refine (Ideal.multiReduction_add_single src 0x00000000#32 h hφ hacc (ix2 p q)).trans ?_
  refine Finset.sum_congr rfl fun c _ => congrArg src (funext fun a => Fin.ext ?_)
  match a with
  | ⟨0, _⟩ => rfl
  | ⟨1, _⟩ => rfl
  | ⟨2, _⟩ => rfl

/-- The sum along the positions of a 16 x 512 array, at row `p`: the sum over the 512 positions `q` of the array at
    `(p, q)`. -/
theorem sum_row_apply (src : FVec Ideal S16x512 .f32) (h : S16x512.Reduces [1] S16)
    (hφ : FKind.Formats .f32) (hacc : (0x00000000#32 : BitVec 32) = FKind.add.neutral .f32 hφ) (p : Fin 16) :
    multiReduction .add [1] S16 src 0x00000000#32 h hφ hacc (ix1 p) = ∑ q : Fin 512, src (ix2 p q) := by
  refine (Ideal.multiReduction_add_single src 0x00000000#32 h hφ hacc (ix1 p)).trans ?_
  refine Finset.sum_congr rfl fun q _ => congrArg src (funext fun a => Fin.ext ?_)
  match a with
  | ⟨0, _⟩ => rfl
  | ⟨1, _⟩ => rfl

/-! ## The two elementwise functions at an index -/

variable {s : Shape} {φ : FTy}

/-- An exponential at an index is the exponential of the element … -/
theorem exp_apply (a : FVec Ideal s φ) (i : s.Idx) : exp a i = Ideal.exp (a i) := rfl
/-- … and a hyperbolic tangent the hyperbolic tangent of the element. -/
theorem tanh_apply (a : FVec Ideal s φ) (i : s.Idx) : tanh a i = Ideal.tanh (a i) := rfl

/-! ## The term in two stages -/

/-- The hidden pre-activations of the block: the projected features, plus the row term, plus the bias. -/
def preact (x0 : Vec Ideal S16x512x256 .f32) (x3 : Vec Ideal S256x32 .f32) (x8 : Vec Ideal S16x32 .f32)
    (x10 : Vec Ideal S32 .f32) : FVec Ideal S16x512x32 .f32 :=
  addf
    (addf
      (shapeCast S16x512x32
        (matmul dot_S8192x256_S256x32_S8192x32_1_0_0_1_n_n none
          (shapeCast S8192x256 (truncf .bf16 x0 bitsLt_bf16_f32) shapeCasts_S16x512x256_S8192x256)
          (truncf .bf16 (shapeCast S256x32 x3 shapeCasts_S256x32_S256x32) bitsLt_bf16_f32)
          (constant S8192x32 .f32 0x00000000#32))
        shapeCasts_S8192x32_S16x512x32)
      (broadcastTo S16x512x32
        (shapeCast S16x1x32 (shapeCast S16x32 x8 shapeCasts_S16x32_S16x32) shapeCasts_S16x32_S16x1x32)
        broadcasts_S16x1x32_S16x512x32))
    (broadcastTo S16x512x32 (shapeCast S1x1x32 x10 shapeCasts_S32_S1x1x32) broadcasts_S1x1x32_S16x512x32)

/-- The unnormalised weights of the block: the exponential of the rectified second-layer output. -/
def scores (x0 : Vec Ideal S16x512x256 .f32) (x3 : Vec Ideal S256x32 .f32) (x8 : Vec Ideal S16x32 .f32)
    (x10 x18 : Vec Ideal S32 .f32) (x24 : Vec Ideal S1 .f32) : FVec Ideal S16x512 .f32 :=
  exp
    (maximumf
      (addf
        (multiReduction .add [2] S16x512
          (mulf (tanh (preact x0 x3 x8 x10))
            (broadcastTo S16x512x32
              (shapeCast S1x1x32 (shapeCast S32 x18 shapeCasts_S32_S32) shapeCasts_S32_S1x1x32)
              broadcasts_S1x1x32_S16x512x32))
          0x00000000#32 reduces_S16x512x32_S16x512 (.inl rfl) rfl)
        (broadcastTo S16x512 (shapeCast S1x1 x24 shapeCasts_S1_S1x1) broadcasts_S1x1_S16x512))
      (broadcast S16x512 (Scalar.ofBits .f32 0x00000000#32)))

/-- The stored block is the weights divided by their row totals plus ε: the same term, with the two stages named. -/
theorem k0_pay1_eq (x0 : Vec Ideal S16x512x256 .f32) (x3 : Vec Ideal S256x32 .f32) (x8 : Vec Ideal S16x32 .f32)
    (x10 x18 : Vec Ideal S32 .f32) (x24 : Vec Ideal S1 .f32) :
    k0_pay1 (F := Ideal) x0 x3 x8 x10 x18 x24
      = divf (scores x0 x3 x8 x10 x18 x24)
          (broadcastTo S16x512
            (addf
              (shapeCast S16x1
                (multiReduction .add [1] S16 (scores x0 x3 x8 x10 x18 x24) 0x00000000#32 reduces_S16x512_S16 (.inl rfl) rfl)
                shapeCasts_S16_S16x1)
              (broadcast S16x1 (Scalar.ofBits .f32 0x33D6BF95#32)))
            broadcasts_S16x1_S16x512) := rfl

/-- The pre-activation of hidden unit `c` at position `q` of row `p`:
    `(∑ d, x (p, q, d) · w (d, c)) + u (p, c) + b c`. The product is read at row `512 p + q` of the flattened
    positions, whose left operand there is `x (p, q, ·)`; a view of an array at its own shape is the array. -/
theorem preact_apply (x0 : Vec Ideal S16x512x256 .f32) (x3 : Vec Ideal S256x32 .f32) (x8 : Vec Ideal S16x32 .f32)
    (x10 : Vec Ideal S32 .f32) (p : Fin 16) (q : Fin 512) (c : Fin 32) :
    preact x0 x3 x8 x10 (ix3 p q c)
      = ((∑ d : Fin 256, x0 (ix3 p q d) * x3 (ix2 d c)) + x8 (ix2 p c)) + x10 (ix1 c) := by
  unfold preact
  rw [addf_apply, addf_apply, bcast_rows_apply, bcast_vec_apply, cast_8192x32_apply, dot_apply,
    shapeCast_self x8, shapeCast_self x3]
  refine congrArg (· + _) (congrArg (· + _) (Finset.sum_congr rfl fun d _ => ?_))
  rw [cast_16x512x256_apply]
  rfl

/-- The weight at position `q` of row `p` is that row's score at `q`:
    `exp (max ((∑ c, tanh (pre-activation c) · v c) + β) 0)`. -/
theorem scores_apply (x0 : Vec Ideal S16x512x256 .f32) (x3 : Vec Ideal S256x32 .f32) (x8 : Vec Ideal S16x32 .f32)
    (x10 x18 : Vec Ideal S32 .f32) (x24 : Vec Ideal S1 .f32) (p : Fin 16) (q : Fin 512) :
    scores x0 x3 x8 x10 x18 x24 (ix2 p q)
      = Cert.Spec.score (fun t d => x0 (ix3 p t d)) (fun d h => x3 (ix2 d h)) (fun h => x8 (ix2 p h))
          (fun h => x10 (ix1 h)) (fun h => x18 (ix1 h)) (x24 (ix1 (0 : Fin 1))) q := by
  unfold scores Cert.Spec.score Cert.Spec.hid
  rw [exp_apply, maximumf_apply, addf_apply, bcast_one_apply, broadcast_apply]
  refine congrArg (fun z => Ideal.exp (max (z + _) _)) ?_
  refine (sum_hidden_apply _ _ _ _ p q).trans (Finset.sum_congr rfl fun c _ => ?_)
  rw [mulf_apply, tanh_apply, preact_apply, bcast_vec_apply, shapeCast_self x18]

/-! ## The stored block at an index -/

/-- The stored value at position `q` of row `p` is the row's attention weight at `q`: its score over the row's
    total plus ε, the total being the sum of the row's scores over the 512 positions. -/
theorem pay_apply (x0 : Vec Ideal S16x512x256 .f32) (x3 : Vec Ideal S256x32 .f32) (x8 : Vec Ideal S16x32 .f32)
    (x10 x18 : Vec Ideal S32 .f32) (x24 : Vec Ideal S1 .f32) (p : Fin 16) (q : Fin 512) :
    k0_pay1 (F := Ideal) x0 x3 x8 x10 x18 x24 (ix2 p q)
      = Cert.Spec.attnRow (fun t d => x0 (ix3 p t d)) (fun d h => x3 (ix2 d h)) (fun h => x8 (ix2 p h))
          (fun h => x10 (ix1 h)) (fun h => x18 (ix1 h)) (x24 (ix1 (0 : Fin 1))) q := by
  rw [k0_pay1_eq, divf_apply, bcast_col_apply, addf_apply, cast_col_apply, broadcast_apply, scores_apply]
  unfold Cert.Spec.attnRow
  refine congrArg (fun z => Ideal.div _ (z + _)) ?_
  exact (sum_row_apply _ _ _ _ p).trans (Finset.sum_congr rfl fun t _ => scores_apply x0 x3 x8 x10 x18 x24 p t)

end Cert.KernelIdeal.Pay

end
-- ==== Proof.KernelValue.lean ====
/-
  The kernel program's result, as a function of its arguments.

  The program slices the first weight matrix into its halves, multiplies `y` by the lower half, flattens the second
  weight matrix to a vector, runs the attention body over a grid of sixteen points, and finally gives the 256 x 512
  result a trailing unit axis.  Grid point `t` sees batch rows `16 t … 16 t + 15` of `x` and of the row term, and the
  whole of every other operand; what it writes back is rows `16 t … 16 t + 15` of the result.  Since a row's
  attention weights depend on that row alone, each point's block is the matching block of ONE matrix — the
  specification's `out2` of the launch arguments — and the sixteen blocks tile it.
-/
import proofs.«100652_j57346403336437_2_alg».proof.Proof.Gen.KernelIdeal.Frame
import proofs.«100652_j57346403336437_2_alg».proof.Proof.Spec
import proofs.«100652_j57346403336437_2_alg».proof.Proof.Payload
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The arrays the host prepares before the region -/

/-- When the region is entered the first prepared array holds rows 0 … 255 of the weight matrix. -/
theorem V_main_v0 (c : Dev nD) : (V m c main_v0 : S256x32.Idx → Elt F .f32)
    = extractStridedSlice S256x32 ![0, 0] (m ((c : Thread nD τ).loc main_arg3)) slices_S512x32_S256x32_0_0 := by
  show StableHlo.after hostOps0 (fun b => m (c, b)) (Proc.devRef .tc main_v0) = _
  after_results <;> rfl

/-- The second holds the product of `y` with rows 256 … 511 of the weight matrix. -/
theorem V_main_v2 (c : Dev nD) : (V m c main_v2 : S256x32.Idx → Elt F .f32)
    = Host.dotGeneral dot_S256x256_S256x32_S256x32_1_0_0_1_n_n (some .fp32) (m ((c : Thread nD τ).loc main_arg1))
        (extractStridedSlice S256x32 ![256, 0] (m ((c : Thread nD τ).loc main_arg3)) slices_S512x32_S256x32_256_0) := by
  show StableHlo.after hostOps0 (fun b => m (c, b)) (Proc.devRef .tc main_v2) = _
  after_results <;> rfl

/-- The third holds the 32 x 1 second weight matrix laid out as a vector of 32. -/
theorem V_main_v3 (c : Dev nD) : (V m c main_v3 : S32.Idx → Elt F .f32)
    = shapeCast S32 (m ((c : Thread nD τ).loc main_arg5)) shapeCasts_S32x1_S32 := by
  show StableHlo.after hostOps0 (fun b => m (c, b)) (Proc.devRef .tc main_v3) = _
  after_results <;> rfl

/-- The grid has sixteen points, and point `t` takes batch rows `16 t … 16 t + 15`: the block index of every window
    that moves with the grid is the point's number, and the other windows stay at block zero. -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 2) = t.val ∧ win0_6.index t (1 : Fin 2) = 0 ∧ t.val < 16 :=
  (by decide +kernel : ∀ t : Fin grid0.N, _)

/-- Batch row `16 t + p`. -/
def row (t : Fin cfg0.N) (p : Fin 16) : Fin 256 := ⟨16 * t.val + p.val, by have := (idx_facts t).2.2.2.2.2.2.2.2.2.2.2.2; have := p.isLt; omega⟩

/-! ## What each window shows the body at grid point `t`

A block's element sits in its array at block index times block size plus the coordinate inside the block, axis by
axis; with the block indices above that is row `16 t + p` for the two windows that move with the grid and the
element's own coordinates for the rest. -/

/-- The first window shows rows `16 t … 16 t + 15` of `x`. -/
theorem blk0 (c : Dev nD) (t : Fin cfg0.N) (p : Fin 16) (q : Fin 512) (d : Fin 256) :
    (iblk m c 0 t : Vec F S16x512x256 .f32) (ix3 p q d) = V m c main_arg0 (ix3 (row t p) q d) := by
  obtain ⟨e0, e1, e2, -⟩ := idx_facts t
  show V m c main_arg0 (((cfg0.win 0).blk t).view.emb (ix3 p q d)) = V m c main_arg0 (ix3 (row t p) q d)
  refine congrArg _ (funext fun a => Fin.ext ?_)
  match a with
  | ⟨0, _⟩ => show win0_0.index t (0 : Fin 3) * 16 + 1 * p.val = 16 * t.val + p.val; omega
  | ⟨1, _⟩ => show win0_0.index t (1 : Fin 3) * 512 + 1 * q.val = q.val; omega
  | ⟨2, _⟩ => show win0_0.index t (2 : Fin 3) * 256 + 1 * d.val = d.val; omega

/-- The second shows the same rows of the row term. -/
theorem blk1 (c : Dev nD) (t : Fin cfg0.N) (p : Fin 16) (h : Fin 32) :
    (iblk m c 1 t : Vec F S16x32 .f32) (ix2 p h) = V m c main_v2 (ix2 (row t p) h) := by
  obtain ⟨-, -, -, e0, e1, -⟩ := idx_facts t
  show V m c main_v2 (((cfg0.win 1).blk t).view.emb (ix2 p h)) = V m c main_v2 (ix2 (row t p) h)
  refine congrArg _ (funext fun a => Fin.ext ?_)
  match a with
  | ⟨0, _⟩ => show win0_1.index t (0 : Fin 2) * 16 + 1 * p.val = 16 * t.val + p.val; omega
  | ⟨1, _⟩ => show win0_1.index t (1 : Fin 2) * 32 + 1 * h.val = h.val; omega

/-- The third shows the whole upper half of the weight matrix, at every point. -/
theorem blk2 (c : Dev nD) (t : Fin cfg0.N) (d : Fin 256) (h : Fin 32) :
    (iblk m c 2 t : Vec F S256x32 .f32) (ix2 d h) = V m c main_v0 (ix2 d h) := by
  obtain ⟨-, -, -, -, -, e0, e1, -⟩ := idx_facts t
  show V m c main_v0 (((cfg0.win 2).blk t).view.emb (ix2 d h)) = V m c main_v0 (ix2 d h)
  refine congrArg _ (funext fun a => Fin.ext ?_)
  match a with
  | ⟨0, _⟩ => show win0_2.index t (0 : Fin 2) * 256 + 1 * d.val = d.val; omega
  | ⟨1, _⟩ => show win0_2.index t (1 : Fin 2) * 32 + 1 * h.val = h.val; omega

/-- The fourth shows the whole first bias. -/
theorem blk3 (c : Dev nD) (t : Fin cfg0.N) (h : Fin 32) :
    (iblk m c 3 t : Vec F S32 .f32) (ix1 h) = V m c main_arg4 (ix1 h) := by
  obtain ⟨-, -, -, -, -, -, -, e0, -⟩ := idx_facts t
  show V m c main_arg4 (((cfg0.win 3).blk t).view.emb (ix1 h)) = V m c main_arg4 (ix1 h)
  refine congrArg _ (funext fun a => Fin.ext ?_)
  match a with
  | ⟨0, _⟩ => show win0_3.index t (0 : Fin 1) * 32 + 1 * h.val = h.val; omega

/-- The fifth shows the whole second weight vector. -/
theorem blk4 (c : Dev nD) (t : Fin cfg0.N) (h : Fin 32) :
    (iblk m c 4 t : Vec F S32 .f32) (ix1 h) = V m c main_v3 (ix1 h) := by
  obtain ⟨-, -, -, -, -, -, -, -, e0, -⟩ := idx_facts t
  show V m c main_v3 (((cfg0.win 4).blk t).view.emb (ix1 h)) = V m c main_v3 (ix1 h)
  refine congrArg _ (funext fun a => Fin.ext ?_)
  match a with
  | ⟨0, _⟩ => show win0_4.index t (0 : Fin 1) * 32 + 1 * h.val = h.val; omega

/-- The sixth shows the scalar bias. -/
theorem blk5 (c : Dev nD) (t : Fin cfg0.N) (z : Fin 1) :
    (iblk m c 5 t : Vec F S1 .f32) (ix1 z) = V m c main_arg6 (ix1 z) := by
  obtain ⟨-, -, -, -, -, -, -, -, -, e0, -⟩ := idx_facts t
  show V m c main_arg6 (((cfg0.win 5).blk t).view.emb (ix1 z)) = V m c main_arg6 (ix1 z)
  refine congrArg _ (funext fun a => Fin.ext ?_)
  match a with
  | ⟨0, _⟩ => show win0_5.index t (0 : Fin 1) * 1 + 1 * z.val = z.val; omega

/-- The element `(p, q)` of point `t`'s output block sits at `(16 t + p, q)` of the result matrix. -/
theorem emb6 (t : Fin cfg0.N) (p : Fin 16) (q : Fin 512) :
    ((cfg0.win 6).blk t).view.emb (ix2 p q) = (ix2 (row t p) q : S256x512.Idx) := by
  obtain ⟨-, -, -, -, -, -, -, -, -, -, e0, e1, -⟩ := idx_facts t
  refine funext fun a => Fin.ext ?_
  match a with
  | ⟨0, _⟩ => show win0_6.index t (0 : Fin 2) * 16 + 1 * p.val = 16 * t.val + p.val; omega
  | ⟨1, _⟩ => show win0_6.index t (1 : Fin 2) * 512 + 1 * q.val = q.val; omega

/-! ## The arrays the host prepares for the region, read at an index (at the ideal instance) -/

section Ideal
variable (mi : (ℓ : Loc nD τ sig) → Buf (Elt Ideal) ℓ)

/-- The first operand the region takes of the weight matrix is its upper half. -/
theorem upper_read (c : Dev nD) (d : Fin 256) (h : Fin 32) :
    V mi c main_v0 (ix2 d h) = Cert.Spec.upper (mi ((c : Thread nD τ).loc main_arg3)) d h := by
  rw [V_main_v0]
  unfold Cert.Spec.upper
  exact extractStridedSlice_apply (s := S512x32) (t := S256x32) ![0, 0] (mi ((c : Thread nD τ).loc main_arg3)) slices_S512x32_S256x32_0_0 (ix2 d h)
    (ix2 (⟨d.val, by have := d.isLt; omega⟩ : Fin 512) h) (fun a => match a with
    | ⟨0, _⟩ => by show d.val = 0 + d.val; omega
    | ⟨1, _⟩ => by show h.val = 0 + h.val; omega)

/-- The lower half, read the same way. -/
theorem lower_read (c : Dev nD) (d : Fin 256) (h : Fin 32) :
    extractStridedSlice (α := EReal) S256x32 ![256, 0] (mi ((c : Thread nD τ).loc main_arg3)) slices_S512x32_S256x32_256_0 (ix2 d h)
      = Cert.Spec.lower (mi ((c : Thread nD τ).loc main_arg3)) d h := by
  unfold Cert.Spec.lower
  exact extractStridedSlice_apply (s := S512x32) (t := S256x32) ![256, 0] (mi ((c : Thread nD τ).loc main_arg3)) slices_S512x32_S256x32_256_0 (ix2 d h)
    (ix2 (⟨256 + d.val, by have := d.isLt; omega⟩ : Fin 512) h) (fun a => match a with
    | ⟨0, _⟩ => by show 256 + d.val = 256 + d.val; omega
    | ⟨1, _⟩ => by show h.val = 0 + h.val; omega)

/-- The second weight vector is the single column of the second weight matrix. -/
theorem w2_read (c : Dev nD) (h : Fin 32) :
    V mi c main_v3 (ix1 h) = mi ((c : Thread nD τ).loc main_arg5) (ix2 h (0 : Fin 1)) := by
  rw [V_main_v3]
  refine shapeCast_apply _ shapeCasts_S32x1_S32 (ix1 h) (ix2 h (0 : Fin 1)) ?_
  rw [Shape.rowMajor_val_two, Shape.rowMajor_val_one]
  show h.val * 1 + 0 = h.val
  omega

/-- The operand indices of the row-term product at output `(n, h)` and contraction position `k` are `(n, k)` on the
    left and `(k, h)` on the right, coordinate by coordinate. The left operand's row is the output's row. -/
theorem rowTerm_lhs_0 (i : S256x32.Idx) (q : dot_S256x256_S256x32_S256x32_1_0_0_1_n_n.contr.Idx) : (dot_S256x256_S256x32_S256x32_1_0_0_1_n_n.lhsIdx i q 0).val = (i 0).val := by
  unfold DotDims.lhsIdx
  rw [dif_neg (show ¬(0 : Fin S256x256.rank) ∈ dot_S256x256_S256x32_S256x32_1_0_0_1_n_n.lhsBatch by decide), dif_pos (show (0 : Fin S256x256.rank) ∈ dot_S256x256_S256x32_S256x32_1_0_0_1_n_n.lhsNonContracting by decide)]
  rfl
/-- The left operand's column is the contraction position. -/
theorem rowTerm_lhs_1 (i : S256x32.Idx) (q : dot_S256x256_S256x32_S256x32_1_0_0_1_n_n.contr.Idx) : (dot_S256x256_S256x32_S256x32_1_0_0_1_n_n.lhsIdx i q 1).val = (q ⟨0, by decide⟩).val :=
  dot_S256x256_S256x32_S256x32_1_0_0_1_n_n.lhsIdx_val_of_single rfl i q
/-- The right operand's row is the contraction position. -/
theorem rowTerm_rhs_0 (i : S256x32.Idx) (q : dot_S256x256_S256x32_S256x32_1_0_0_1_n_n.contr.Idx) : (dot_S256x256_S256x32_S256x32_1_0_0_1_n_n.rhsIdx i q 0).val = (q ⟨0, by decide⟩).val :=
  dot_S256x256_S256x32_S256x32_1_0_0_1_n_n.rhsIdx_val_of_single rfl i q
/-- The right operand's column is the output's column. -/
theorem rowTerm_rhs_1 (i : S256x32.Idx) (q : dot_S256x256_S256x32_S256x32_1_0_0_1_n_n.contr.Idx) : (dot_S256x256_S256x32_S256x32_1_0_0_1_n_n.rhsIdx i q 1).val = (i 1).val := by
  unfold DotDims.rhsIdx
  rw [dif_neg (show ¬(1 : Fin S256x32.rank) ∈ dot_S256x256_S256x32_S256x32_1_0_0_1_n_n.rhsBatch by decide), dif_pos (show (1 : Fin S256x32.rank) ∈ dot_S256x256_S256x32_S256x32_1_0_0_1_n_n.rhsNonContracting by decide)]
  rfl

/-- The second operand the region takes is, at `(n, h)`, row `n` of `y` times column `h` of the lower half of the
    weight matrix: the host's product is the exact sum over the 256 contraction positions. -/
theorem rowTerm_read (c : Dev nD) (n : Fin 256) (h : Fin 32) :
    V mi c main_v2 (ix2 n h) = Cert.Spec.rowTerm (mi ((c : Thread nD τ).loc main_arg1)) (mi ((c : Thread nD τ).loc main_arg3)) n h := by
  refine (congrFun (V_main_v2 mi c) (ix2 n h)).trans ?_
  show @Eq EReal _ _
  simp only [Host.dotGeneral]
  rw [Ideal.dotGeneral_apply, ← Equiv.sum_comp (contrEquiv1 dot_S256x256_S256x32_S256x32_1_0_0_1_n_n 256 rfl rfl).symm]
  unfold Cert.Spec.rowTerm
  refine Finset.sum_congr rfl fun k _ => ?_
  have hk := contrEquiv1_symm_val dot_S256x256_S256x32_S256x32_1_0_0_1_n_n 256 rfl rfl k
  have el : dot_S256x256_S256x32_S256x32_1_0_0_1_n_n.lhsIdx (ix2 n h) ((contrEquiv1 dot_S256x256_S256x32_S256x32_1_0_0_1_n_n 256 rfl rfl).symm k) = ix2 n k := funext fun a => Fin.ext (by
    match a with
    | ⟨0, _⟩ => exact rowTerm_lhs_0 _ _
    | ⟨1, _⟩ => exact (rowTerm_lhs_1 _ _).trans hk)
  have er : dot_S256x256_S256x32_S256x32_1_0_0_1_n_n.rhsIdx (ix2 n h) ((contrEquiv1 dot_S256x256_S256x32_S256x32_1_0_0_1_n_n 256 rfl rfl).symm k) = ix2 k h := funext fun a => Fin.ext (by
    match a with
    | ⟨0, _⟩ => exact (rowTerm_rhs_0 _ _).trans hk
    | ⟨1, _⟩ => exact rowTerm_rhs_1 _ _)
  rw [el, er, lower_read]

end Ideal

/-! ## One grid point's block of the result -/

section Point
variable (mi : (ℓ : Loc nD τ sig) → Buf (Elt Ideal) ℓ)

/-- The attention weight depends on its arguments only through their values. -/
theorem attnRow_congr {X X' : Fin 512 → Fin 256 → EReal} {w w' : Fin 256 → Fin 32 → EReal} {u u' b b' v v' : Fin 32 → EReal}
    {β β' : EReal} (hX : ∀ t d, X t d = X' t d) (hw : ∀ d h, w d h = w' d h) (hu : ∀ h, u h = u' h)
    (hb : ∀ h, b h = b' h) (hv : ∀ h, v h = v' h) (hβ : β = β') (t : Fin 512) :
    Cert.Spec.attnRow X w u b v β t = Cert.Spec.attnRow X' w' u' b' v' β' t := by
  obtain rfl : X = X' := funext fun t => funext fun d => hX t d
  obtain rfl : w = w' := funext fun d => funext fun h => hw d h
  obtain rfl : u = u' := funext hu
  obtain rfl : b = b' := funext hb
  obtain rfl : v = v' := funext hv
  subst hβ
  rfl

/-- The attention weights as a matrix of the arguments core `c` was launched with. -/
def G2 (c : Dev nD) : S256x512.Idx → EReal := fun i =>
  Cert.Spec.out2 (mi ((c : Thread nD τ).loc main_arg0)) (mi ((c : Thread nD τ).loc main_arg1)) (mi ((c : Thread nD τ).loc main_arg3))
    (mi ((c : Thread nD τ).loc main_arg4)) (mi ((c : Thread nD τ).loc main_arg5)) (mi ((c : Thread nD τ).loc main_arg6))
    ⟨(i 0).val, (i 0).isLt⟩ ⟨(i 1).val, (i 1).isLt⟩

/-- At grid point `t` the body's value at `(p, q)` of its block is the attention weight of position `q` in batch
    row `16 t + p`: the body sees that row of `x`, the upper half of the weight matrix, that row's term, both biases
    and the second weight vector through its windows. -/
theorem point_eq (c : Dev nD) (t : Fin cfg0.N) (p : Fin 16) (q : Fin 512) :
    k0_pay1 (F := Ideal) (iblk mi c 0 t) (iblk mi c 2 t) (iblk mi c 1 t) (iblk mi c 3 t) (iblk mi c 4 t) (iblk mi c 5 t) (ix2 p q)
      = G2 mi c (ix2 (row t p) q) := by
  refine (Cert.KernelIdeal.Pay.pay_apply _ _ _ _ _ _ p q).trans ?_
  show _ = Cert.Spec.out2 _ _ _ _ _ _ (row t p) q
  unfold Cert.Spec.out2
  exact attnRow_congr
    (fun t' d => (blk0 mi c t p t' d).trans (congrFun (V_main_arg0 mi c) _))
    (fun d h => (blk2 mi c t d h).trans (upper_read mi c d h))
    (fun h => (blk1 mi c t p h).trans (rowTerm_read mi c (row t p) h))
    (fun h => (blk3 mi c t h).trans (congrFun (V_main_arg4 mi c) _))
    (fun h => (blk4 mi c t h).trans (w2_read mi c h))
    ((blk5 mi c t 0).trans (congrFun (V_main_arg6 mi c) _)) q

end Point

/-! ## From blocks to the result matrix, and through the lines after the region -/

section Whole
variable (mi : (ℓ : Loc nD τ sig) → Buf (Elt Ideal) ℓ) (ρ : Dev nD → PrngReg)

/-- The zero offsets of a whole-buffer access, at ranks one, two and three. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What grid point `t` writes back is block `t` of the attention matrix: rows `16 t … 16 t + 15`, all 512 positions. -/
theorem flushed6_eq (c : Dev nD) (t : Fin cfg0.N) :
    (dats mi 0 c).flushed 6 t = ((cfg0.win 6).blk t).view.read (Elt Ideal) (G2 mi c) := by
  show (cfg0.win 6).cut (grid0.coords t) ((dats mi 0 c).after 6 t) = _
  rw [after0_6]
  unfold out0_6
  rw [View.canon_unit_zero hz2]
  simp only [View.ld_unit_zero (S := S16x512x256) hz3, View.ld_unit_zero (S := S256x32) hz2,
    View.ld_unit_zero (S := S16x32) hz2, View.ld_unit_zero (S := S32) hz1, View.ld_unit_zero (S := S1) hz1]
  funext j
  obtain ⟨p, q, rfl⟩ : ∃ (p : Fin 16) (q : Fin 512), j = ix2 p q := ⟨j 0, j 1, eq_ix2 j⟩
  exact (point_eq mi c t p q).trans (congrArg (G2 mi c) (emb6 t p q).symm)

/-- An index of the result matrix is in point `t`'s block iff each coordinate is in the block's range on its axis. -/
theorem mem_blk6 (t : Fin cfg0.N) (i : S256x512.Idx) :
    i ∈ ((cfg0.win 6).blk t).view.set ↔ ∀ a : Fin 2, win0_6.index t a * S16x512.size a ≤ (i a).val ∧ (i a).val < win0_6.index t a * S16x512.size a + S16x512.size a := by
  show i ∈ ((View.whole main_v4).slice (win0_6.rect t)).set ↔ _
  rw [View.set_slice_whole, Rect.mem_set_unit]
  exact Iff.rfl

/-- The sixteen blocks tile the matrix: row `r` lies in the block of point `r / 16`. -/
theorem cover6 (i : S256x512.Idx) :
    ∃ t : Fin cfg0.N, (cfg0.win 6).flush t = true ∧ i ∈ ((cfg0.win 6).blk t).view.set := by
  have hi0 : (i 0).val < 256 := (i 0).isLt
  have hi1 : (i 1).val < 512 := (i 1).isLt
  have hN : cfg0.N = 16 := N_0
  obtain ⟨t, ht⟩ : ∃ t : Fin cfg0.N, t.val = (i 0).val / 16 := ⟨⟨(i 0).val / 16, by rw [hN]; omega⟩, rfl⟩
  obtain ⟨-, -, -, -, -, -, -, -, -, -, e0, e1, -⟩ := idx_facts t
  refine ⟨t, flush0_6 t, ?_⟩
  rw [mem_blk6]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 512 ≤ (i 1).val ∧ (i 1).val < win0_6.index t (1 : Fin 2) * 512 + 512; omega

/-- So after the sixteen write-backs the region's result array is the attention matrix. -/
theorem final6 (c : Dev nD) : (dats mi 0 c).arrAt 6 cfg0.N = G2 mi c :=
  (dats mi 0 c).arrAt_eq_of_cover 6 (G2 mi c) (fun t _ => flushed6_eq mi c t) cover6

/-- The one line after the region copies the matrix into a result with a trailing unit axis. -/
theorem tail_v5 (c : Dev nD) :
    Pipeline.afterTail₀ cfgs (dats mi) 0 (V0 mi) [hostOps1] c main_v5
      = broadcastInDim S256x512x1 ![0, 1] bcast_S256x512_S256x512x1_0_1 (G2 mi c) := by
  unfold Pipeline.afterTail₀
  show StableHlo.after hostOps1 _ (Proc.devRef .tc main_v5) = _
  after_results
  exact congrArg _ ((Pipeline.withArrays_arr spec0 launch0.win.arr_inj c _ _ 6).trans (final6 mi c))

/-- Read at `(n, t, 0)` the copy is the matrix at `(n, t)`: the specification with its trailing unit axis. -/
theorem bcast_G2 (c : Dev nD) :
    broadcastInDim S256x512x1 ![0, 1] bcast_S256x512_S256x512x1_0_1 (G2 mi c)
      = Cert.Spec.out3 (mi ((c : Thread nD τ).loc main_arg0)) (mi ((c : Thread nD τ).loc main_arg1)) (mi ((c : Thread nD τ).loc main_arg3))
          (mi ((c : Thread nD τ).loc main_arg4)) (mi ((c : Thread nD τ).loc main_arg5)) (mi ((c : Thread nD τ).loc main_arg6)) := by
  funext i
  refine (broadcastInDim_apply (s := S256x512) (t := S256x512x1) ![0, 1] bcast_S256x512_S256x512x1_0_1 (G2 mi c) i
    (ix2 (⟨(i 0).val, (i 0).isLt⟩ : Fin 256) (⟨(i 1).val, (i 1).isLt⟩ : Fin 512)) (fun a => match a with
      | ⟨0, _⟩ => by show (i 0).val = if (256 : Nat) = 1 then 0 else (i 0).val; rw [if_neg (by decide)]
      | ⟨1, _⟩ => by show (i 1).val = if (512 : Nat) = 1 then 0 else (i 1).val; rw [if_neg (by decide)])).trans ?_
  rfl

/-- THE KERNEL PROGRAM'S RUN: every weakly fair execution terminates with the result at the specification of the
    launch arguments, and the arguments unchanged — an argument a window stages is only ever read through it, and an
    argument no window stages is written by no line before or after the region. -/
theorem run : θ_run defs (onTc (τ := τ) (main (F := Ideal))) ⟨mi, fun _ => 0, ρ⟩ fun r => ∀ c : Dev nD,
      r.2.mem ((c.tc : Thread nD τ).loc main_v5)
        = Cert.Spec.out3 (mi ((c : Thread nD τ).loc main_arg0)) (mi ((c : Thread nD τ).loc main_arg1)) (mi ((c : Thread nD τ).loc main_arg3))
            (mi ((c : Thread nD τ).loc main_arg4)) (mi ((c : Thread nD τ).loc main_arg5)) (mi ((c : Thread nD τ).loc main_arg6))
      ∧ r.2.mem ((c.tc : Thread nD τ).loc main_arg0) = mi ((c.tc : Thread nD τ).loc main_arg0)
      ∧ r.2.mem ((c.tc : Thread nD τ).loc main_arg1) = mi ((c.tc : Thread nD τ).loc main_arg1)
      ∧ r.2.mem ((c.tc : Thread nD τ).loc main_arg2) = mi ((c.tc : Thread nD τ).loc main_arg2)
      ∧ r.2.mem ((c.tc : Thread nD τ).loc main_arg3) = mi ((c.tc : Thread nD τ).loc main_arg3)
      ∧ r.2.mem ((c.tc : Thread nD τ).loc main_arg4) = mi ((c.tc : Thread nD τ).loc main_arg4)
      ∧ r.2.mem ((c.tc : Thread nD τ).loc main_arg5) = mi ((c.tc : Thread nD τ).loc main_arg5)
      ∧ r.2.mem ((c.tc : Thread nD τ).loc main_arg6) = mi ((c.tc : Thread nD τ).loc main_arg6) :=
  (θ_run defs _ _).mono (fun r h c => ⟨
      (((h c).2 main_v5 (Pipeline.mem_restRefs_of main_v5 (by decide) (by decide))).trans (tail_v5 mi c)).trans (bcast_G2 mi c),
      ((h c).1 0).trans (((dats mi 0 c).arrAt_in 0 rfl _).trans ((A_eq mi c 0).trans (V_main_arg0 mi c))),
      ((h c).2 main_arg1 (Pipeline.mem_restRefs_of main_arg1 (by decide) (by decide))).trans (W_main_arg1 mi (dats mi) c),
      ((h c).2 main_arg2 (Pipeline.mem_restRefs_of main_arg2 (by decide) (by decide))).trans (W_main_arg2 mi (dats mi) c),
      ((h c).2 main_arg3 (Pipeline.mem_restRefs_of main_arg3 (by decide) (by decide))).trans (W_main_arg3 mi (dats mi) c),
      ((h c).1 3).trans (((dats mi 0 c).arrAt_in 3 rfl _).trans ((A_eq mi c 3).trans (V_main_arg4 mi c))),
      ((h c).2 main_arg5 (Pipeline.mem_restRefs_of main_arg5 (by decide) (by decide))).trans (W_main_arg5 mi (dats mi) c),
      ((h c).1 5).trans (((dats mi 0 c).arrAt_in 5 rfl _).trans ((A_eq mi c 5).trans (V_main_arg6 mi c)))⟩)
    (run_main mi ρ)

end Whole

end Cert.KernelIdeal.KVal

end
-- ==== Proof.RefSpec.lean ====
/-
  The reference program's result, read index by index, is the specification.

  The reference program is a chain of 27 array operations.  Read at one index of its result, each
  operation is an operation on extended reals at one index of its operands: a slice reads a shifted
  row, a broadcast forgets the coordinates it copies along, a contraction is a finite sum of products,
  the float sum over the positions is a finite sum, and the pointwise operations are the extended
  reals' own.  Unwinding the chain from the quotient inwards gives, at row n and position t,

      score n t / ((∑ t', score n t') + ε),

  where  score n t = exp (max (∑ h, tanh ((∑ d, x n t d * W1 d h) + (∑ d, y n d * W1 (256 + d) h) + b1 h) * W2 h 0 + b2 0) 0):
  the specification's attention weight, with the same grouping of the sums.
-/
import proofs.«100652_j57346403336437_2_alg».proof.Proof.Gen.ReferenceIdeal.Read
import proofs.«100652_j57346403336437_2_alg».proof.Proof.Spec
import Idealize.ShloMosaic.Lib.ValueIdx
import Idealize.ShloMosaic.PureOps.Ideal.Laws

noncomputable section

namespace Cert.ReferenceIdeal.RefSpec

open Cert.ReferenceIdeal Cert.ReferenceIdeal.Read Idealize.ShloMosaic Idealize.ShloMosaic.ValueIdx
open scoped BigOperators

section Stages

variable (x0 : (⟨S256x512x256, .f32⟩ : BufTy).Contents (Elt Ideal)) (x1 : (⟨S256x256, .f32⟩ : BufTy).Contents (Elt Ideal))
  (x3 : (⟨S512x32, .f32⟩ : BufTy).Contents (Elt Ideal)) (x4 : (⟨S32, .f32⟩ : BufTy).Contents (Elt Ideal))
  (x5 : (⟨S32x1, .f32⟩ : BufTy).Contents (Elt Ideal)) (x6 : (⟨S1, .f32⟩ : BufTy).Contents (Elt Ideal))

/-- The product of y with the lower half of W1, at (n, h): the sum over d of y n d * W1 (256 + d) h. -/
theorem v3_at (n : Fin 256) (h : Fin 32) :
    val_main_v3 (F := Ideal) x1 x3 (ix2 n h) = Cert.Spec.rowTerm x1 x3 n h := by
  rw [val_main_v3_apply]
  unfold Cert.Spec.rowTerm Cert.Spec.lower
  refine Finset.sum_congr rfl fun d _ => ?_
  rw [val_main_v1_apply]
  -- the left factor is y at (n, d); the right factor is the lower slice at (d, h), that is W1 at (256 + d, h)
  have e1 : lidx_main_v3 (ix2 n h) d = ix2 n d :=
    funext fun a => Fin.ext (by match a with | ⟨0, _⟩ => rfl | ⟨1, _⟩ => rfl)
  have e2 : idx_main_v1 (ridx_main_v3 (ix2 n h) d)
      = ix2 (⟨256 + d.val, by have := d.isLt; omega⟩ : Fin 512) h :=
    funext fun a => Fin.ext (by match a with | ⟨0, _⟩ => rfl | ⟨1, _⟩ => rfl)
  rw [e1, e2]

/-- The pre-activation at (n, t, h): the contraction of x with the upper half of W1, plus the row term
    (copied along the positions), plus the bias (copied along rows and positions), in that grouping. -/
theorem v9_at (n : Fin 256) (t : Fin 512) (h : Fin 32) :
    val_main_v9 (F := Ideal) x0 x1 x3 x4 (ix3 n t h)
      = ((∑ d : Fin 256, x0 (ix3 n t d) * Cert.Spec.upper x3 d h) + Cert.Spec.rowTerm x1 x3 n h) + x4 (ix1 h) := by
  rw [val_main_v9_apply, val_main_v6_apply, val_main_v2_apply, val_main_v5_apply, val_main_v4_apply,
    val_main_v8_apply, val_main_v7_apply, Ideal.addf_def, Ideal.addf_def]
  -- a copy along the positions reads the row term at (n, h); a copy along rows and positions reads the bias at h
  have e5 : idx_main_v4 (idx_main_v5 (ix3 n t h)) = ix2 n h :=
    funext fun a => Fin.ext (by match a with | ⟨0, _⟩ => rfl | ⟨1, _⟩ => rfl)
  have e8 : idx_main_v7 (idx_main_v8 (ix3 n t h)) = ix1 h :=
    funext fun a => Fin.ext (by match a with | ⟨0, _⟩ => rfl)
  rw [e5, e8, v3_at]
  refine congrArg (· + _) (congrArg (· + _) (Finset.sum_congr rfl fun d _ => ?_))
  -- term d of the contraction: x at (n, t, d) times the upper slice at (d, h), that is W1 at (d, h)
  rw [val_main_v0_apply]
  unfold Cert.Spec.upper
  have el : lidx_main_v2 (ix3 n t h) d = ix3 n t d :=
    funext fun a => Fin.ext (by match a with | ⟨0, _⟩ => rfl | ⟨1, _⟩ => rfl | ⟨2, _⟩ => rfl)
  have er : idx_main_v0 (ridx_main_v2 (ix3 n t h) d)
      = ix2 (⟨d.val, by have := d.isLt; omega⟩ : Fin 512) h :=
    funext fun a => Fin.ext (by match a with | ⟨0, _⟩ => rfl | ⟨1, _⟩ => rfl)
  rw [el, er]

/-- The hidden layer at (n, t, h) is the specification's hidden unit of row n. -/
theorem v10_at (n : Fin 256) (t : Fin 512) (h : Fin 32) :
    val_main_v10 (F := Ideal) x0 x1 x3 x4 (ix3 n t h)
      = Cert.Spec.hid (fun t d => x0 (ix3 n t d)) (Cert.Spec.upper x3) (Cert.Spec.rowTerm x1 x3 n)
          (fun h => x4 (ix1 h)) t h := by
  rw [val_main_v10_apply, v9_at, Ideal.hostUnary_tanh_def]
  rfl

/-- The unnormalised weight at (n, t, 0): the contraction of the hidden layer with W2's column, plus
    the scalar bias, rectified at zero and exponentiated, is the specification's score of row n. -/
theorem v16_at (n : Fin 256) (t : Fin 512) :
    val_main_v16 (F := Ideal) x0 x1 x3 x4 x5 x6 (ix3 n t (0 : Fin 1))
      = Cert.Spec.score (fun t d => x0 (ix3 n t d)) (Cert.Spec.upper x3) (Cert.Spec.rowTerm x1 x3 n)
          (fun h => x4 (ix1 h)) (fun h => x5 (ix2 h (0 : Fin 1))) (x6 (ix1 (0 : Fin 1))) t := by
  rw [val_main_v16_apply, val_main_v15_apply, val_main_v14_apply, val_main_v11_apply, val_main_v13_apply,
    val_main_v12_apply, val_main_call0_v0_apply, val_main_call0_cst_apply, Ideal.hostUnary_exp_def,
    Ideal.maximumf_def, Ideal.addf_def, Ideal.ofBits_def]
  unfold Cert.Spec.score
  -- the scalar bias, copied along every axis, is read at its only index
  have e6 : idx_main_v12 (idx_main_v13 (ix3 n t (0 : Fin 1))) = ix1 (0 : Fin 1) :=
    funext fun a => Fin.ext (by match a with | ⟨0, _⟩ => rfl)
  rw [e6]
  refine congrArg Ideal.exp (congrArg (max · _) (congrArg (· + _) (Finset.sum_congr rfl fun h _ => ?_)))
  -- term h of the contraction: the hidden unit at (n, t, h) times W2 at (h, 0)
  have el : lidx_main_v11 (ix3 n t (0 : Fin 1)) h = ix3 n t h :=
    funext fun a => Fin.ext (by match a with | ⟨0, _⟩ => rfl | ⟨1, _⟩ => rfl | ⟨2, _⟩ => rfl)
  have er : ridx_main_v11 (ix3 n t (0 : Fin 1)) h = ix2 h (0 : Fin 1) :=
    funext fun a => Fin.ext (by match a with | ⟨0, _⟩ => rfl | ⟨1, _⟩ => rfl)
  rw [el, er, v10_at]

/-- The divisor at (n, t, 0): the scores of row n summed over the positions (the sum's initial term is
    the zero word, which adds nothing) plus ε, copied along the positions. -/
theorem v21_at (n : Fin 256) (t : Fin 512) :
    val_main_v21 (F := Ideal) x0 x1 x3 x4 x5 x6 (ix3 n t (0 : Fin 1))
      = (∑ t' : Fin 512, Cert.Spec.score (fun t d => x0 (ix3 n t d)) (Cert.Spec.upper x3) (Cert.Spec.rowTerm x1 x3 n)
          (fun h => x4 (ix1 h)) (fun h => x5 (ix2 h (0 : Fin 1))) (x6 (ix1 (0 : Fin 1))) t')
        + Ideal.ofBits .f32 0x33D6BF95#32 := by
  rw [val_main_v21_apply, val_main_v20_apply, val_main_v18_apply, val_main_v17_apply, val_main_v19_apply,
    val_main_cst_0_apply, val_main_cst_apply, Ideal.addf_def, Ideal.ofBits_def, Ideal.ofBits_def,
    Ideal.ofBits_zero_f32, zero_add]
  refine congrArg (· + _) (Finset.sum_congr rfl fun k _ => ?_)
  -- term k of the row total is the score at (n, k, 0), whatever the position t the total is copied to
  have e : idx_main_v17 (idx_main_v18 (idx_main_v21 (ix3 n t (0 : Fin 1)))) k = ix3 n k (0 : Fin 1) :=
    funext fun a => Fin.ext (by match a with | ⟨0, _⟩ => rfl | ⟨1, _⟩ => rfl | ⟨2, _⟩ => rfl)
  rw [e, v16_at]

end Stages

/-- The reference program's result is the specification: at every index (n, t, 0) the quotient of the
    score by the row's divisor is the attention weight of position t in row n. -/
theorem ref_eq (x0 : (⟨S256x512x256, .f32⟩ : BufTy).Contents (Elt Ideal)) (x1 : (⟨S256x256, .f32⟩ : BufTy).Contents (Elt Ideal))
    (x3 : (⟨S512x32, .f32⟩ : BufTy).Contents (Elt Ideal)) (x4 : (⟨S32, .f32⟩ : BufTy).Contents (Elt Ideal))
    (x5 : (⟨S32x1, .f32⟩ : BufTy).Contents (Elt Ideal)) (x6 : (⟨S1, .f32⟩ : BufTy).Contents (Elt Ideal)) :
    val_main_v22 (F := Ideal) x0 x1 x3 x4 x5 x6 = Cert.Spec.out3 x0 x1 x3 x4 x5 x6 := by
  funext i
  obtain ⟨n, t, z, rfl⟩ : ∃ (n : Fin 256) (t : Fin 512) (z : Fin 1), i = ix3 n t z := ⟨i 0, i 1, i 2, eq_ix3 i⟩
  -- the trailing axis has extent one, so its coordinate is 0
  obtain rfl : z = 0 := Subsingleton.elim _ _
  rw [val_main_v22_apply, Ideal.hostDivf_def, v16_at, v21_at]
  rfl

end Cert.ReferenceIdeal.RefSpec

end
-- ==== Proof.lean ====
/-
  The certificate of the attention kernel against its reference.

  Both programs compute, for each of 256 batch rows and each of 512 positions, the weight
      score n t / ((∑ t', score n t') + ε),
      score n t = exp (max (∑ h, tanh ((∑ d, x n t d · W1 d h) + (∑ d, y n d · W1 (256 + d) h) + b1 h) · W2 h 0 + b2 0) 0)
  (Proof/Spec.lean).  The reference does so with whole-array operations; the kernel program prepares the halves of
  W1, the row term and the vector of W2 on the host, runs its body on sixteen blocks of sixteen rows, and appends
  the unit axis.  At the ideal instance the two agree term by term: rounding to the narrow format before the first
  product is the identity, the body's product into a zero accumulator and its sum over the hidden units are the
  reference's two contractions, and the row total is the reference's sum with a zero initial term.  No algebraic law
  beyond `0 + a = a` is needed, so the precondition (finite inputs) is never opened.

  The pieces: Proof/Payload.lean reads the body's arithmetic at one element of a block; Proof/KernelValue.lean reads
  the blocks off the arrays the host prepared, shows the sixteen blocks tile the result, and carries the result
  through the line after the region; Proof/RefSpec.lean reads the reference's operations one by one.  The three
  frames are the programs' runs with the results forgotten, and nothing was rewritten in idealizing the kernel.
-/
import proofs.«100652_j57346403336437_2_alg».proof.Defs
import proofs.«100652_j57346403336437_2_alg».proof.Proof.Gen.Kernel
import proofs.«100652_j57346403336437_2_alg».proof.Proof.Gen.Kernel.Frame
import proofs.«100652_j57346403336437_2_alg».proof.Proof.Gen.KernelIdeal
import proofs.«100652_j57346403336437_2_alg».proof.Proof.Gen.KernelIdeal.Frame
import proofs.«100652_j57346403336437_2_alg».proof.Proof.Gen.ReferenceIdeal
import proofs.«100652_j57346403336437_2_alg».proof.Proof.Gen.Pre_finite_inputs
import proofs.«100652_j57346403336437_2_alg».proof.Proof.Gen.ReferenceIdeal.Run
import proofs.«100652_j57346403336437_2_alg».proof.Proof.Gen.ReferenceIdeal.Read
import proofs.«100652_j57346403336437_2_alg».proof.Proof.KernelValue
import proofs.«100652_j57346403336437_2_alg».proof.Proof.RefSpec
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote nothing, so there is nothing to preserve. -/
theorem preserves : Cert.preserves_Kernel_KernelIdeal := trivial

/-- From memories that agree on the arguments both programs end with the specification of those arguments as their
    result: the kernel program by its run read block by block, the reference by its run read operation by operation. -/
theorem algebraic : Cert.algebraic_KernelIdeal_ReferenceIdeal := by
  intro m ρ m' ρ' _ hagree
  refine ⟨fun c => Cert.Spec.out3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6⟩ := hagree c
  rw [Cert.ReferenceIdeal.Read.val_main_v22_eq, Cert.ReferenceIdeal.RefSpec.ref_eq, a0, a1, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
